-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280000 : Shape := ⟨1, ![1280000]⟩
abbrev S100000x64 : Shape := ⟨2, ![100000, 64]⟩
abbrev S200000x64 : Shape := ⟨2, ![200000, 64]⟩
abbrev S_ : Shape := ⟨0, ![]⟩

class Facts : Prop where
  bcast_S_S1280000 : S_.BroadcastsInDim S1280000 (![] : Fin 0 → Fin S1280000.rank)
  reducesTo_S1280000_S_d0 : S1280000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S200000x64 : S_.BroadcastsInDim S200000x64 (![] : Fin 0 → Fin S200000x64.rank)
  reducesTo_S200000x64_S_d0_1 : S200000x64.ReducesTo [0, 1] S_

variable [Facts]

def fn {F : FTy → Type} [FloatOps F] (main_arg0 : FVec F S1280000 .f32) (main_arg1 : FVec F S100000x64 .f32) (main_arg2 : FVec F S200000x64 .f32) (main_arg3 : IVec S1280000 32) (main_arg4 : IVec S1280000 32) : IVec S_ 1 :=
  let main_v0 : FVec F S1280000 .f32 := Host.absf main_arg0
  let main_cst : FVec F S_ .f32 := constant S_ .f32 0x7F800000#32
  let main_v1 : FVec F S1280000 .f32 := broadcastInDim S1280000 ![] bcast_S_S1280000 main_cst
  let main_v2 : IVec S1280000 1 := cmpf .olt main_v0 main_v1
  let main_c : IVec S_ 1 := constantI S_ 1 1#1
  let main_v3 : IVec S_ 1 := (fun x v => Host.reduce IntOp.andi x v reducesTo_S1280000_S_d0 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S200000x64 .f32 := Host.absf main_arg2
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  main_v13
-- ==== Kernel.lean ====
abbrev S1280000 : Shape := ⟨1, ![1280000]⟩
abbrev S100000x64 : Shape := ⟨2, ![100000, 64]⟩
abbrev S200000x64 : Shape := ⟨2, ![200000, 64]⟩
abbrev S300000x64 : Shape := ⟨2, ![300000, 64]⟩
abbrev S_ : Shape := ⟨0, ![]⟩
abbrev S1280000x1 : Shape := ⟨2, ![1280000, 1]⟩
abbrev S1280000x64 : Shape := ⟨2, ![1280000, 64]⟩
abbrev S10240x64 : Shape := ⟨2, ![10240, 64]⟩
abbrev S10240 : Shape := ⟨1, ![10240]⟩
abbrev S10240x1 : Shape := ⟨2, ![10240, 1]⟩
abbrev S10000x64 : Shape := ⟨2, ![10000, 64]⟩

abbrev nBuf : Space → Nat
  | .hbm => 53
  | .vmem => 36
  | .smem => 0
  | _ => 0

abbrev bufTy : (tb : Table) → Fin (tcTables nBuf tb) → BufTy
  | .hbm, ⟨0, _⟩ => ⟨S1280000, .f32⟩
  | .hbm, ⟨1, _⟩ => ⟨S100000x64, .f32⟩
  | .hbm, ⟨2, _⟩ => ⟨S200000x64, .f32⟩
  | .hbm, ⟨3, _⟩ => ⟨S1280000, .i32⟩
  | .hbm, ⟨4, _⟩ => ⟨S1280000, .i32⟩
  | .hbm, ⟨5, _⟩ => ⟨S300000x64, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x64, .f32⟩
  | .hbm, ⟨16, _⟩ => ⟨S_, .f32⟩
  | .hbm, ⟨17, _⟩ => ⟨S300000x64, .f32⟩
  | .hbm, ⟨18, _⟩ => ⟨S1280000x1, .i32⟩
  | .hbm, ⟨19, _⟩ => ⟨S300000x64, .f32⟩
  | .hbm, ⟨20, _⟩ => ⟨S300000x64, .f32⟩
  | .hbm, ⟨21, _⟩ => ⟨S_, .i32⟩
  | .hbm, ⟨22, _⟩ => ⟨S1280000, .i32⟩
  | .hbm, ⟨23, _⟩ => ⟨S1280000, .i1⟩
  | .hbm, ⟨24, _⟩ => ⟨S_, .i32⟩
  | .hbm, ⟨25, _⟩ => ⟨S1280000, .i32⟩
  | .hbm, ⟨26, _⟩ => ⟨S1280000, .i32⟩
  | .hbm, ⟨27, _⟩ => ⟨S1280000, .i32⟩
  | .hbm, ⟨28, _⟩ => ⟨S1280000x1, .i32⟩
  | .hbm, ⟨29, _⟩ => ⟨S1280000x64, .f32⟩
  | .hbm, ⟨30, _⟩ => ⟨S1280000x64, .f32⟩
  | .hbm, ⟨31, _⟩ => ⟨S_, .f32⟩
  | .hbm, ⟨32, _⟩ => ⟨S300000x64, .f32⟩
  | .hbm, ⟨33, _⟩ => ⟨S1280000x1, .i32⟩
  | .hbm, ⟨34, _⟩ => ⟨S300000x64, .f32⟩
  | .hbm, ⟨35, _⟩ => ⟨S300000x64, .f32⟩
  | .hbm, ⟨36, _⟩ => ⟨S_, .i32⟩
  | .hbm, ⟨37, _⟩ => ⟨S1280000, .i32⟩
  | .hbm, ⟨38, _⟩ => ⟨S1280000, .i1⟩
  | .hbm, ⟨39, _⟩ => ⟨S_, .i32⟩
  | .hbm, ⟨40, _⟩ => ⟨S1280000, .i32⟩
  | .hbm, ⟨41, _⟩ => ⟨S1280000, .i32⟩
  | .hbm, ⟨42, _⟩ => ⟨S1280000, .i32⟩
  | .hbm, ⟨43, _⟩ => ⟨S1280000x1, .i32⟩
  | .hbm, ⟨44, _⟩ => ⟨S1280000x64, .f32⟩
  | .hbm, ⟨45, _⟩ => ⟨S1280000x64, .f32⟩
  | .hbm, ⟨46, _⟩ => ⟨S_, .f32⟩
  | .hbm, ⟨47, _⟩ => ⟨S300000x64, .f32⟩
  | .hbm, ⟨48, _⟩ => ⟨S1280000x1, .i32⟩
  | .hbm, ⟨49, _⟩ => ⟨S300000x64, .f32⟩
  | .hbm, ⟨50, _⟩ => ⟨S300000x64, .f32⟩
  | .hbm, ⟨51, _⟩ => ⟨S100000x64, .f32⟩
  | .hbm, ⟨52, _⟩ => ⟨S200000x64, .f32⟩
  | .local _ .vmem, ⟨0, _⟩ => ⟨S10240x64, .f32⟩
  | .local _ .vmem, ⟨1, _⟩ => ⟨S10240x64, .f32⟩
  | .local _ .vmem, ⟨2, _⟩ => ⟨S10240, .f32⟩
  | .local _ .vmem, ⟨3, _⟩ => ⟨S10240, .f32⟩
  | .local _ .vmem, ⟨4, _⟩ => ⟨S10240x64, .f32⟩
  | .local _ .vmem, ⟨5, _⟩ => ⟨S10240x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10240x64, .f32⟩
  | .local _ .vmem, ⟨13, _⟩ => ⟨S10240x64, .f32⟩
  | .local _ .vmem, ⟨14, _⟩ => ⟨S10240, .f32⟩
  | .local _ .vmem, ⟨15, _⟩ => ⟨S10240, .f32⟩
  | .local _ .vmem, ⟨16, _⟩ => ⟨S10240x64, .f32⟩
  | .local _ .vmem, ⟨17, _⟩ => ⟨S10240x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10240x64, .f32⟩
  | .local _ .vmem, ⟨25, _⟩ => ⟨S10240x64, .f32⟩
  | .local _ .vmem, ⟨26, _⟩ => ⟨S10240, .f32⟩
  | .local _ .vmem, ⟨27, _⟩ => ⟨S10240, .f32⟩
  | .local _ .vmem, ⟨28, _⟩ => ⟨S10240x64, .f32⟩
  | .local _ .vmem, ⟨29, _⟩ => ⟨S10240x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S1280000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10240x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10240x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10240x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10240 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10240x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10240x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10240 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10240x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  concatenates_S100000x64_S200000x64_S300000x64_d0 : Shape.Concatenates [S100000x64, S200000x64] S300000x64 0
  bcast_S_S1280000 : S_.BroadcastsInDim S1280000 (![] : Fin 0 → Fin S1280000.rank)
  bcast_S1280000_S1280000x1_0 : S1280000.BroadcastsInDim S1280000x1 (![0] : Fin 1 → Fin S1280000x1.rank)
  inb_S10240_S10240_0 : ∀ a, (![0] : Fin 1 → Nat) a + S10240.size a ≤ S10240.size a
  h_S10240 : 0 < S10240.numel
  inb_S10240x64_S10240x64_0_0 : ∀ a, (![0, 0] : Fin 2 → Nat) a + S10240x64.size a ≤ S10240x64.size a
  h_S10240x64 : 0 < S10240x64.numel
  shapeCasts_S10240x64_S10240x64 : S10240x64.ShapeCasts S10240x64
  shapeCasts_S10240_S10240x1 : S10240.ShapeCasts S10240x1
  broadcasts_S10240x1_S10240x64 : S10240x1.Broadcasts S10240x64
  bcast_S_S300000x64 : S_.BroadcastsInDim S300000x64 (![] : Fin 0 → Fin S300000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S300000x64_S100000x64_0_0 : S300000x64.Slices ![0, 0] S100000x64
  slices_S300000x64_S200000x64_100000_0 : S300000x64.Slices ![100000, 0] S200000x64
  gather_S300000x64_S1280000x1_S1280000x64_1_0_n_n_0_1_164_wf : GatherDims.WF S300000x64 S1280000x1 S1280000x64 [1] [0] [] [0] [] 1 ![1, 64]
  scatter_S300000x64_S1280000x1_S1280000x64_1_0_0_1_wf : ScatterDims.WF S300000x64 S1280000x1 S1280000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10240x64.size a ≤ S1280000x64.size a
  hwx0_0 : ∀ i : grid0.Coords, EltTy.bits .f32 = 32 ∨ (Rect.block (s := S1280000x64) S10240x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10240.size a ≤ S1280000.size a
  hwx0_1 : ∀ i : grid0.Coords, EltTy.bits .f32 = 32 ∨ (Rect.block (s := S1280000) S10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10240x64.size a ≤ S1280000x64.size a
  hwx0_2 : ∀ i : grid0.Coords, EltTy.bits .f32 = 32 ∨ (Rect.block (s := S1280000x64) S10240x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S300000x64.size a
  hwx1_0 : ∀ i : grid1.Coords, EltTy.bits .f32 = 32 ∨ (Rect.block (s := S300000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S300000x64.size a
  hwx1_1 : ∀ i : grid1.Coords, EltTy.bits .f32 = 32 ∨ (Rect.block (s := S300000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S300000x64.size a
  hwx1_2 : ∀ i : grid1.Coords, EltTy.bits .f32 = 32 ∨ (Rect.block (s := S300000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10240x64.size a ≤ S1280000x64.size a
  hwx2_0 : ∀ i : grid2.Coords, EltTy.bits .f32 = 32 ∨ (Rect.block (s := S1280000x64) S10240x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10240.size a ≤ S1280000.size a
  hwx2_1 : ∀ i : grid2.Coords, EltTy.bits .f32 = 32 ∨ (Rect.block (s := S1280000) S10240.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10240x64.size a ≤ S1280000x64.size a
  hwx2_2 : ∀ i : grid2.Coords, EltTy.bits .f32 = 32 ∨ (Rect.block (s := S1280000x64) S10240x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S300000x64.size a
  hwx3_0 : ∀ i : grid3.Coords, EltTy.bits .f32 = 32 ∨ (Rect.block (s := S300000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S300000x64.size a
  hwx3_1 : ∀ i : grid3.Coords, EltTy.bits .f32 = 32 ∨ (Rect.block (s := S300000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S300000x64.size a
  hwx3_2 : ∀ i : grid3.Coords, EltTy.bits .f32 = 32 ∨ (Rect.block (s := S300000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10240x64.size a ≤ S1280000x64.size a
  hwx4_0 : ∀ i : grid4.Coords, EltTy.bits .f32 = 32 ∨ (Rect.block (s := S1280000x64) S10240x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10240.size a ≤ S1280000.size a
  hwx4_1 : ∀ i : grid4.Coords, EltTy.bits .f32 = 32 ∨ (Rect.block (s := S1280000) S10240.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10240x64.size a ≤ S1280000x64.size a
  hwx4_2 : ∀ i : grid4.Coords, EltTy.bits .f32 = 32 ∨ (Rect.block (s := S1280000x64) S10240x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S300000x64.size a
  hwx5_0 : ∀ i : grid5.Coords, EltTy.bits .f32 = 32 ∨ (Rect.block (s := S300000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S300000x64.size a
  hwx5_1 : ∀ i : grid5.Coords, EltTy.bits .f32 = 32 ∨ (Rect.block (s := S300000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S300000x64.size a
  hwx5_2 : ∀ i : grid5.Coords, EltTy.bits .f32 = 32 ∨ (Rect.block (s := S300000x64) S10000x64.size (cc5_transform_2 i) (hinb5_2 i)).WholeWords (EltTy.packing .f32)

variable [Facts₀]

def gather_S300000x64_S1280000x1_S1280000x64_1_0_n_n_0_1_164 : GatherDims S300000x64 S1280000x1 S1280000x64 where
  offsetDims := [1]
  collapsedSliceDims := [0]
  operandBatchingDims := []
  startIndicesBatchingDims := []
  startIndexMap := [0]
  indexVectorDim := 1
  sliceSizes := ![1, 64]
  wf := gather_S300000x64_S1280000x1_S1280000x64_1_0_n_n_0_1_164_wf
def scatter_S300000x64_S1280000x1_S1280000x64_1_0_0_1 : ScatterDims S300000x64 S1280000x1 S1280000x64 where
  updateWindowDims := [1]
  insertedWindowDims := [0]
  scatterDimsToOperandDims := [0]
  indexVectorDim := 1
  wf := scatter_S300000x64_S1280000x1_S1280000x64_1_0_0_1_wf

abbrev win0_0 : Pipeline.Window sig grid0 :=
  Pipeline.Window.ofSpec (Memref.whole main_v7) S10240x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10240x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S10240x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10240.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S10240x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S10240x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S10240.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S10240x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v24) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S1280000 : Shape := ⟨1, ![1280000]⟩
abbrev S100000x64 : Shape := ⟨2, ![100000, 64]⟩
abbrev S200000x64 : Shape := ⟨2, ![200000, 64]⟩
abbrev S300000x64 : Shape := ⟨2, ![300000, 64]⟩
abbrev S_ : Shape := ⟨0, ![]⟩
abbrev S1280000x1 : Shape := ⟨2, ![1280000, 1]⟩
abbrev S1280000x64 : Shape := ⟨2, ![1280000, 64]⟩

abbrev nBuf : Space → Nat
  | .hbm => 59
  | .vmem => 0
  | .smem => 0
  | _ => 0

abbrev bufTy : (tb : Table) → Fin (tcTables nBuf tb) → BufTy
  | .hbm, ⟨0, _⟩ => ⟨S1280000, .f32⟩
  | .hbm, ⟨1, _⟩ => ⟨S100000x64, .f32⟩
  | .hbm, ⟨2, _⟩ => ⟨S200000x64, .f32⟩
  | .hbm, ⟨3, _⟩ => ⟨S1280000, .i32⟩
  | .hbm, ⟨4, _⟩ => ⟨S1280000, .i32⟩
  | .hbm, ⟨5, _⟩ => ⟨S300000x64, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x1, .f32⟩
  | .hbm, ⟨16, _⟩ => ⟨S1280000x64, .f32⟩
  | .hbm, ⟨17, _⟩ => ⟨S1280000x64, .f32⟩
  | .hbm, ⟨18, _⟩ => ⟨S_, .f32⟩
  | .hbm, ⟨19, _⟩ => ⟨S300000x64, .f32⟩
  | .hbm, ⟨20, _⟩ => ⟨S1280000x1, .i32⟩
  | .hbm, ⟨21, _⟩ => ⟨S300000x64, .f32⟩
  | .hbm, ⟨22, _⟩ => ⟨S300000x64, .f32⟩
  | .hbm, ⟨23, _⟩ => ⟨S_, .i32⟩
  | .hbm, ⟨24, _⟩ => ⟨S1280000, .i32⟩
  | .hbm, ⟨25, _⟩ => ⟨S1280000, .i1⟩
  | .hbm, ⟨26, _⟩ => ⟨S_, .i32⟩
  | .hbm, ⟨27, _⟩ => ⟨S1280000, .i32⟩
  | .hbm, ⟨28, _⟩ => ⟨S1280000, .i32⟩
  | .hbm, ⟨29, _⟩ => ⟨S1280000, .i32⟩
  | .hbm, ⟨30, _⟩ => ⟨S1280000x1, .i32⟩
  | .hbm, ⟨31, _⟩ => ⟨S1280000x64, .f32⟩
  | .hbm, ⟨32, _⟩ => ⟨S1280000x1, .f32⟩
  | .hbm, ⟨33, _⟩ => ⟨S1280000x64, .f32⟩
  | .hbm, ⟨34, _⟩ => ⟨S1280000x64, .f32⟩
  | .hbm, ⟨35, _⟩ => ⟨S_, .f32⟩
  | .hbm, ⟨36, _⟩ => ⟨S300000x64, .f32⟩
  | .hbm, ⟨37, _⟩ => ⟨S1280000x1, .i32⟩
  | .hbm, ⟨38, _⟩ => ⟨S300000x64, .f32⟩
  | .hbm, ⟨39, _⟩ => ⟨S300000x64, .f32⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000x64, .f32⟩
  | .hbm, ⟨49, _⟩ => ⟨S1280000x1, .f32⟩
  | .hbm, ⟨50, _⟩ => ⟨S1280000x64, .f32⟩
  | .hbm, ⟨51, _⟩ => ⟨S1280000x64, .f32⟩
  | .hbm, ⟨52, _⟩ => ⟨S_, .f32⟩
  | .hbm, ⟨53, _⟩ => ⟨S300000x64, .f32⟩
  | .hbm, ⟨54, _⟩ => ⟨S1280000x1, .i32⟩
  | .hbm, ⟨55, _⟩ => ⟨S300000x64, .f32⟩
  | .hbm, ⟨56, _⟩ => ⟨S300000x64, .f32⟩
  | .hbm, ⟨57, _⟩ => ⟨S100000x64, .f32⟩
  | .hbm, ⟨58, _⟩ => ⟨S200000x64, .f32⟩
  | _, _ => ⟨S1280000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  concatenates_S100000x64_S200000x64_S300000x64_d0 : Shape.Concatenates [S100000x64, S200000x64] S300000x64 0
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S300000x64 : S_.BroadcastsInDim S300000x64 (![] : Fin 0 → Fin S300000x64.rank)
  slices_S300000x64_S100000x64_0_0 : S300000x64.Slices ![0, 0] S100000x64
  slices_S300000x64_S200000x64_100000_0 : S300000x64.Slices ![100000, 0] S200000x64
  gather_S300000x64_S1280000x1_S1280000x64_1_0_n_n_0_1_164_wf : GatherDims.WF S300000x64 S1280000x1 S1280000x64 [1] [0] [] [0] [] 1 ![1, 64]
  scatter_S300000x64_S1280000x1_S1280000x64_1_0_0_1_wf : ScatterDims.WF S300000x64 S1280000x1 S1280000x64 [1] [0] [0] 1

variable [Facts₀]

def gather_S300000x64_S1280000x1_S1280000x64_1_0_n_n_0_1_164 : GatherDims S300000x64 S1280000x1 S1280000x64 where
  offsetDims := [1]
  collapsedSliceDims := [0]
  operandBatchingDims := []
  startIndicesBatchingDims := []
  startIndexMap := [0]
  indexVectorDim := 1
  sliceSizes := ![1, 64]
  wf := gather_S300000x64_S1280000x1_S1280000x64_1_0_n_n_0_1_164_wf
def scatter_S300000x64_S1280000x1_S1280000x64_1_0_0_1 : ScatterDims S300000x64 S1280000x1 S1280000x64 where
  updateWindowDims := [1]
  insertedWindowDims := [0]
  scatterDimsToOperandDims := [0]
  indexVectorDim := 1
  wf := scatter_S300000x64_S1280000x1_S1280000x64_1_0_0_1_wf

class Facts : Prop extends Facts₀ where

variable [Facts]
-- ==== Proof.NamedRun.lean ====
/-
  The kernel program's run with its two result buffers named.

  Every weakly fair execution of the program ends with each buffer outside the kernels' scoped scratch holding the
  contents at the last boundary of the walk through the program: the launch memory pushed through each stretch of array
  operations and each kernel region in order. The two results are two such buffers, so they end at that boundary's
  contents; the five arguments end as launched, since nothing on the way writes them.
-/
import proofs.«136025_j74156905333132_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to the end without a fault; its two results hold the last boundary's contents of their buffers and
    its five arguments are as launched. -/
theorem run : θ_run defs (onTc (τ := τ) (main (F := F))) ⟨m, fun _ => 0, ρ⟩ (fun r => ∀ c : Dev nD,
      r.2.mem ((c.tc : Thread nD τ).loc main_v37) = W13 m ρ c (Proc.devRef .tc main_v37)
      ∧ r.2.mem ((c.tc : Thread nD τ).loc main_v38) = W13 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v37 (by decide)),
       h c _ (mem_uc main_v38 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.KernelIdeal.Named

end
-- ==== Proof.LibHostRows.lean ====
/-
  Host-side (array program) layouts and reductions of a matrix, read at an index given by coordinates, for any extents.

  A broadcast_in_dim reads its operand at the result's coordinates on the axes it names, and at 0 on the operand's axes
  of extent one. So a vector [n] placed as the row of a [1, n] matrix reads entry c at (u, c), and that row repeated
  down [a, n] reads (0, c) at (p, c); a vector [a] placed as the column of an [a, 1] matrix reads entry p at (p, u), and
  that column repeated across [a, b] reads (p, 0) at (p, c). A reduction of an [R, C] matrix along its second axis at row
  p runs over the entries (p, k), k < C — row p with the coordinate k inserted on the dropped axis is (p, k) —: with a
  maximum body it is the running maximum from the initial value, with an add body, over the extended reals, the initial
  value plus the sum.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.HostRows

open Idealize.ShloMosaic Idealize.ShloMosaic.ValueIdx

variable {α : Type}

/-- A vector [n] as the row of a [1, n] matrix reads, at (u, c), its entry c. -/
theorem rowOfVec_apply {n : ℕ} (v : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h v (ix2 u c) = v (ix1 c) :=
  broadcastInDim_apply _ h v (ix2 u c) (ix1 c) (fun ax => match ax with
    | ⟨0, _⟩ => by
      show c.val = if n = 1 then 0 else c.val
      split
      · have := c.isLt; omega
      · rfl)

/-- A row [1, n] repeated down an [a, n] matrix reads, at (p, c), the row's entry c. -/
theorem rowDown_apply {a n : ℕ} (w : (⟨2, ![1, n]⟩ : Shape).Idx → α)
    (h : (⟨2, ![1, n]⟩ : Shape).BroadcastsInDim ⟨2, ![a, n]⟩ ![0, 1]) (p : Fin a) (c : Fin n) :
    broadcastInDim ⟨2, ![a, n]⟩ ![0, 1] h w (ix2 p c) = w (ix2 (0 : Fin 1) c) :=
  broadcastInDim_apply _ h w (ix2 p c) (ix2 (0 : Fin 1) c) (fun ax => match ax with
    | ⟨0, _⟩ => by
      show (0 : ℕ) = if (1 : ℕ) = 1 then 0 else p.val
      rw [if_pos rfl]
    | ⟨1, _⟩ => by
      show c.val = if n = 1 then 0 else c.val
      split
      · have := c.isLt; omega
      · rfl)

/-- A vector [a] as the column of an [a, 1] matrix reads, at (p, u), its entry p. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- A column [a, 1] repeated across an [a, b] matrix reads, at (p, c), the column's entry p. -/
theorem colAcross_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply _ h w (ix2 p c) (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- Row p with the column k inserted on the dropped second axis is the index (p, k). -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- The host's maximum along the second axis of a matrix, at row p: the running maximum, from the initial value, over
    the entries of that row. -/
theorem hostMax_row {R C : ℕ} (x : (⟨2, ![R, C]⟩ : Shape).Idx → EReal) (init : (⟨0, ![]⟩ : Shape).Idx → EReal)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single (FloatOps.maximumf (F := Ideal) (φ := .f32)) x init h' h hu (ix1 p)).trans ?_
  exact congrArg (Finset.fold max (init (Shape.Idx.first hu)) · (Finset.univ : Finset (Fin C)))
    (funext fun k => congrArg x (lift_row h p k))

/-- The host's sum along the second axis of a matrix over the extended reals, at row p: the initial value plus the sum
    of the entries of that row. -/
theorem hostSum_row {R C : ℕ} (x : FVec Ideal ⟨2, ![R, C]⟩ .f32) (init : (⟨0, ![]⟩ : Shape).Idx → Ideal .f32)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) := by
  rw [hostReduceAdd_apply, Ideal.hostReduceAdd_single h' h]
  exact congrArg (init (Shape.Idx.first hu) + ·) (Finset.sum_congr rfl fun k _ => congrArg x (lift_row h p k))

end Cert.HostRows

end
-- ==== Proof.Spec.lean ====
/-
  Three rounds of sparse propagation with a running sum, as one function of the five argument arrays.

  The node table is the user rows stacked on the item rows. One round takes a table `x`, reads for every edge `e`
  the row `x[cols e]` (a negative index counted from the end), scales it by the edge's weight `vals e`, and adds the
  scaled rows into a zero table at the rows `rows e`. The result is table + round(table) + round²(table) + round³(table),
  split back into its user rows and its item rows.

  The per-edge scaling is written here the way an array program states it — the weight vector placed as a column and
  repeated across the 64 features, then an entrywise product — and `weigh_apply` reads it at an entry:
  `(g · column(vals))[e, k] = g[e, k] · vals[e]`.
-/
import Idealize.ShloMosaic.PureOps.Ideal
import Idealize.ShloMosaic.Lib.ValueIdx
import Idealize.ShloMosaic.Lib.Pipeline.Value
import proofs.«136025_j74156905333132_2_alg».proof.Proof.LibHostRows

noncomputable section

namespace Cert.Propagate

open Idealize.ShloMosaic Idealize.ShloMosaic.ValueIdx

/-! ## Shapes -/

/-- One entry per edge. -/
abbrev Edges : Shape := ⟨1, ![1280000]⟩
/-- The edges as a one-column matrix. -/
abbrev EdgeCol : Shape := ⟨2, ![1280000, 1]⟩
/-- One 64-feature row per edge. -/
abbrev EdgeRows : Shape := ⟨2, ![1280000, 64]⟩
abbrev Users : Shape := ⟨2, ![100000, 64]⟩
abbrev Items : Shape := ⟨2, ![200000, 64]⟩
/-- The node table: users first, then items. -/
abbrev Nodes : Shape := ⟨2, ![300000, 64]⟩
abbrev Scalar : Shape := ⟨0, ![]⟩

theorem stack_ok : Shape.Concatenates [Users, Items] Nodes 0 := by decide
theorem fill_edges : Scalar.BroadcastsInDim Edges (![] : Fin 0 → Fin Edges.rank) := by decide
theorem column_ok : Edges.BroadcastsInDim EdgeCol (![0] : Fin 1 → Fin EdgeCol.rank) := by decide
theorem across_ok : EdgeCol.BroadcastsInDim EdgeRows (![0, 1] : Fin 2 → Fin EdgeRows.rank) := by decide
theorem fill_nodes : Scalar.BroadcastsInDim Nodes (![] : Fin 0 → Fin Nodes.rank) := by decide
theorem users_ok : Nodes.Slices ![0, 0] Users := by decide
theorem items_ok : Nodes.Slices ![100000, 0] Items := by decide
theorem takeRows_wf : GatherDims.WF Nodes EdgeCol EdgeRows [1] [0] [] [0] [] 1 ![1, 64] := by decide
theorem addRows_wf : ScatterDims.WF Nodes EdgeCol EdgeRows [1] [0] [0] 1 := by decide

/-- Reading whole rows of the node table by a column of row indices. -/
def takeRows : GatherDims Nodes EdgeCol EdgeRows where
  offsetDims := [1]
  collapsedSliceDims := [0]
  operandBatchingDims := []
  startIndicesBatchingDims := []
  startIndexMap := [0]
  indexVectorDim := 1
  sliceSizes := ![1, 64]
  wf := takeRows_wf

/-- Adding whole rows into the node table at a column of row indices. -/
def addRows : ScatterDims Nodes EdgeCol EdgeRows where
  updateWindowDims := [1]
  insertedWindowDims := [0]
  scatterDimsToOperandDims := [0]
  indexVectorDim := 1
  wf := addRows_wf

variable {F : FTy → Type} [FloatOps F]

/-! ## The pieces -/

/-- The user rows stacked on the item rows. -/
def table (ue : FVec F Users .f32) (ie : FVec F Items .f32) : FVec F Nodes .f32 :=
  concatenate Nodes 0 [⟨Users, ue⟩, ⟨Items, ie⟩] stack_ok

/-- The source index of every edge as a column, a negative index `c` read as `c + 300000`. -/
def sources (cols : IVec Edges 32) : IVec EdgeCol 32 :=
  broadcastInDim EdgeCol ![0] column_ok
    (select (cmpi .slt cols (broadcastInDim Edges ![] fill_edges (constantI Scalar 32 0#32)))
      (addi cols (broadcastInDim Edges ![] fill_edges (constantI Scalar 32 300000#32))) cols)

/-- Each edge's row scaled by the edge's weight: the weights as a column, repeated across the features, times the rows. -/
def weigh (g : FVec F EdgeRows .f32) (vals : FVec F Edges .f32) : FVec F EdgeRows .f32 :=
  mulf g (broadcastInDim EdgeRows ![0, 1] across_ok (broadcastInDim EdgeCol ![0] column_ok vals))

/-- One round: gather the source rows, scale each by its edge's weight, add them into a zero table at the target rows. -/
def round (vals : FVec F Edges .f32) (rows cols : IVec Edges 32) (x : FVec F Nodes .f32) : FVec F Nodes .f32 :=
  Host.scatterAdd addRows (broadcastInDim Nodes ![] fill_nodes (constant Scalar .f32 0x00000000#32))
    (broadcastInDim EdgeCol ![0] column_ok rows)
    (weigh (Host.gather takeRows x (sources cols)) vals)

/-- The table plus its first three rounds, summed in order. -/
def total (vals : FVec F Edges .f32) (ue : FVec F Users .f32) (ie : FVec F Items .f32) (rows cols : IVec Edges 32) :
    FVec F Nodes .f32 :=
  addf (addf (addf (table ue ie) (round vals rows cols (table ue ie)))
      (round vals rows cols (round vals rows cols (table ue ie))))
    (round vals rows cols (round vals rows cols (round vals rows cols (table ue ie))))

/-- The user rows of the total. -/
def userPart (vals : FVec F Edges .f32) (ue : FVec F Users .f32) (ie : FVec F Items .f32) (rows cols : IVec Edges 32) :
    FVec F Users .f32 :=
  extractStridedSlice Users ![0, 0] (total vals ue ie rows cols) users_ok

/-- The item rows of the total. -/
def itemPart (vals : FVec F Edges .f32) (ue : FVec F Users .f32) (ie : FVec F Items .f32) (rows cols : IVec Edges 32) :
    FVec F Items .f32 :=
  extractStridedSlice Items ![100000, 0] (total vals ue ie rows cols) items_ok

/-! ## The scaling read at an entry -/

/-- Entry `(e, k)` of the scaled rows is entry `(e, k)` of the rows times the weight of edge `e`. -/
theorem weigh_apply (g : FVec Ideal EdgeRows .f32) (vals : FVec Ideal Edges .f32) (e : Fin 1280000) (k : Fin 64) :
    weigh g vals (ix2 e k) = g (ix2 e k) * vals (ix1 e) := by
  unfold weigh
  rw [mulf_apply, Cert.HostRows.colAcross_apply, Cert.HostRows.colOfVec_apply]

end Cert.Propagate

end
-- ==== Proof.Stretches.lean ====
/-
  The stretches of array operations between the kernel regions, each read at an arbitrary starting contents `X` of the
  buffers.

  Stretch 0 stacks the two embedding tables and reads the edges' source rows out of the stack. Stretches 2 and 4 read
  the source rows out of the newest round. Stretches 1, 3 and 5 add the scaled rows into a zero table at the edges'
  target rows. Stretch 6 cuts the final sum into its user rows and its item rows. Each lemma also lists the buffers
  that the stretch leaves alone and that a later step still reads.
-/
import proofs.«136025_j74156905333132_2_alg».proof.Proof.Gen.KernelIdeal.Launch
import Idealize.ShloMosaic.Lib.StableHlo.Run
import proofs.«136025_j74156905333132_2_alg».proof.Proof.Spec

set_option maxRecDepth 16384

noncomputable section

namespace Cert.KernelIdeal.Stretch

open Cert.KernelIdeal Cert.KernelIdeal.Gen Idealize.ShloMosaic Idealize.ShloMosaic.TcCoe Idealize.ShloMosaic.StableHlo
open Cert.Propagate

variable (X : Valuation τ sig (Elt Ideal))

/-- Stretch 0: the node table is the two argument tables stacked, and the first gathered rows are its rows at the
    edges' sources. The weights and the two index vectors are left alone. -/
theorem stretch0 (ue : FVec Ideal Users .f32) (ie : FVec Ideal Items .f32) (cols : IVec Edges 32)
    (h1 : X (Proc.devRef .tc main_arg1) = ue) (h2 : X (Proc.devRef .tc main_arg2) = ie) (hc : X (Proc.devRef .tc main_arg4) = cols) :
    after (hostOps0 (F := Ideal)) X (Proc.devRef .tc main_v0) = table ue ie
    ∧ after (hostOps0 (F := Ideal)) X (Proc.devRef .tc main_v7) = Host.gather takeRows (table ue ie) (sources cols)
    ∧ after (hostOps0 (F := Ideal)) X (Proc.devRef .tc main_arg0) = X (Proc.devRef .tc main_arg0)
    ∧ after (hostOps0 (F := Ideal)) X (Proc.devRef .tc main_arg3) = X (Proc.devRef .tc main_arg3)
    ∧ after (hostOps0 (F := Ideal)) X (Proc.devRef .tc main_arg4) = X (Proc.devRef .tc main_arg4) := by
  subst h1 h2 hc
  refine ⟨?_, ?_, ?_, ?_, ?_⟩
  · after_results; rfl
  · after_results; rfl
  · after_results
  · after_results
  · after_results

/-- Stretch 1: the scaled rows are added into a zero table at the edges' target rows. Nothing else the later steps use
    is written. -/
theorem stretch1 (u : FVec Ideal EdgeRows .f32) (rows : IVec Edges 32)
    (hu : X (Proc.devRef .tc main_v8) = u) (hr : X (Proc.devRef .tc main_arg3) = rows) :
    after (hostOps1 (F := Ideal)) X (Proc.devRef .tc main_v11)
      = Host.scatterAdd addRows (broadcastInDim Nodes ![] fill_nodes (constant (F := Ideal) Scalar .f32 0x00000000#32))
          (broadcastInDim EdgeCol ![0] column_ok rows) u
    ∧ after (hostOps1 (F := Ideal)) X (Proc.devRef .tc main_v0) = X (Proc.devRef .tc main_v0)
    ∧ after (hostOps1 (F := Ideal)) X (Proc.devRef .tc main_arg0) = X (Proc.devRef .tc main_arg0)
    ∧ after (hostOps1 (F := Ideal)) X (Proc.devRef .tc main_arg3) = X (Proc.devRef .tc main_arg3)
    ∧ after (hostOps1 (F := Ideal)) X (Proc.devRef .tc main_arg4) = X (Proc.devRef .tc main_arg4) := by
  subst hu hr
  refine ⟨?_, ?_, ?_, ?_, ?_⟩
  · after_results; rfl
  · after_results
  · after_results
  · after_results
  · after_results

/-- Stretch 2: the edges' source rows are read out of the newest round. Nothing else the later steps use is written. -/
theorem stretch2 (x : FVec Ideal Nodes .f32) (cols : IVec Edges 32)
    (hx : X (Proc.devRef .tc main_v11) = x) (hc : X (Proc.devRef .tc main_arg4) = cols) :
    after (hostOps2 (F := Ideal)) X (Proc.devRef .tc main_v19) = Host.gather takeRows x (sources cols)
    ∧ after (hostOps2 (F := Ideal)) X (Proc.devRef .tc main_v12) = X (Proc.devRef .tc main_v12)
    ∧ after (hostOps2 (F := Ideal)) X (Proc.devRef .tc main_arg0) = X (Proc.devRef .tc main_arg0)
    ∧ after (hostOps2 (F := Ideal)) X (Proc.devRef .tc main_arg3) = X (Proc.devRef .tc main_arg3)
    ∧ after (hostOps2 (F := Ideal)) X (Proc.devRef .tc main_arg4) = X (Proc.devRef .tc main_arg4) := by
  subst hx hc
  refine ⟨?_, ?_, ?_, ?_, ?_⟩
  · after_results; rfl
  · after_results
  · after_results
  · after_results
  · after_results

/-- Stretch 3: the scaled rows are added into a zero table at the edges' target rows. Nothing else the later steps use
    is written. -/
theorem stretch3 (u : FVec Ideal EdgeRows .f32) (rows : IVec Edges 32)
    (hu : X (Proc.devRef .tc main_v20) = u) (hr : X (Proc.devRef .tc main_arg3) = rows) :
    after (hostOps3 (F := Ideal)) X (Proc.devRef .tc main_v23)
      = Host.scatterAdd addRows (broadcastInDim Nodes ![] fill_nodes (constant (F := Ideal) Scalar .f32 0x00000000#32))
          (broadcastInDim EdgeCol ![0] column_ok rows) u
    ∧ after (hostOps3 (F := Ideal)) X (Proc.devRef .tc main_v12) = X (Proc.devRef .tc main_v12)
    ∧ after (hostOps3 (F := Ideal)) X (Proc.devRef .tc main_arg0) = X (Proc.devRef .tc main_arg0)
    ∧ after (hostOps3 (F := Ideal)) X (Proc.devRef .tc main_arg3) = X (Proc.devRef .tc main_arg3)
    ∧ after (hostOps3 (F := Ideal)) X (Proc.devRef .tc main_arg4) = X (Proc.devRef .tc main_arg4) := by
  subst hu hr
  refine ⟨?_, ?_, ?_, ?_, ?_⟩
  · after_results; rfl
  · after_results
  · after_results
  · after_results
  · after_results

/-- Stretch 4: the edges' source rows are read out of the newest round. Nothing else the later steps use is written. -/
theorem stretch4 (x : FVec Ideal Nodes .f32) (cols : IVec Edges 32)
    (hx : X (Proc.devRef .tc main_v23) = x) (hc : X (Proc.devRef .tc main_arg4) = cols) :
    after (hostOps4 (F := Ideal)) X (Proc.devRef .tc main_v31) = Host.gather takeRows x (sources cols)
    ∧ after (hostOps4 (F := Ideal)) X (Proc.devRef .tc main_v24) = X (Proc.devRef .tc main_v24)
    ∧ after (hostOps4 (F := Ideal)) X (Proc.devRef .tc main_arg0) = X (Proc.devRef .tc main_arg0)
    ∧ after (hostOps4 (F := Ideal)) X (Proc.devRef .tc main_arg3) = X (Proc.devRef .tc main_arg3) := by
  subst hx hc
  refine ⟨?_, ?_, ?_, ?_⟩
  · after_results; rfl
  · after_results
  · after_results
  · after_results

/-- Stretch 5: the scaled rows are added into a zero table at the edges' target rows. Nothing else the later steps use
    is written. -/
theorem stretch5 (u : FVec Ideal EdgeRows .f32) (rows : IVec Edges 32)
    (hu : X (Proc.devRef .tc main_v32) = u) (hr : X (Proc.devRef .tc main_arg3) = rows) :
    after (hostOps5 (F := Ideal)) X (Proc.devRef .tc main_v35)
      = Host.scatterAdd addRows (broadcastInDim Nodes ![] fill_nodes (constant (F := Ideal) Scalar .f32 0x00000000#32))
          (broadcastInDim EdgeCol ![0] column_ok rows) u
    ∧ after (hostOps5 (F := Ideal)) X (Proc.devRef .tc main_v24) = X (Proc.devRef .tc main_v24) := by
  subst hu hr
  refine ⟨?_, ?_⟩
  · after_results; rfl
  · after_results

/-- Stretch 6: the two results are the user rows and the item rows of the final sum. -/
theorem stretch6 (s : FVec Ideal Nodes .f32) (hs : X (Proc.devRef .tc main_v36) = s) :
    after (hostOps6 (F := Ideal)) X (Proc.devRef .tc main_v37) = extractStridedSlice Users ![0, 0] s users_ok
    ∧ after (hostOps6 (F := Ideal)) X (Proc.devRef .tc main_v38) = extractStridedSlice Items ![100000, 0] s items_ok := by
  subst hs
  refine ⟨?_, ?_⟩
  · after_results
  · after_results

end Cert.KernelIdeal.Stretch

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Scale0.lean ====
/-
  What kernel region 0 leaves in its output array, as one function of the two arrays it reads.

  The region walks the 1,280,000 edge rows in 125 blocks of 10,240. At block `t` the body loads rows
  `[10240·t, 10240·t + 10240)` of the gathered rows and the same stretch of the weight vector, turns the weights into a
  column, repeats the column across the 64 features and multiplies entrywise; the product is written back to the same
  rows of the output. So entry `(e, k)` of the output is `rows[e, k] · weights[e]` — the scaled rows of the
  specification — and the 125 blocks together cover every row.
-/
import proofs.«136025_j74156905333132_2_alg».proof.Proof.Gen.KernelIdeal.Frame
import Idealize.ShloMosaic.Lib.Pipeline.Value
import Idealize.ShloMosaic.Lib.ValueIdx
import proofs.«136025_j74156905333132_2_alg».proof.Proof.Spec
import proofs.«136025_j74156905333132_2_alg».proof.Proof.LibColumn

set_option maxRecDepth 16384

noncomputable section

namespace Cert.KernelIdeal.Scale0

open Cert.KernelIdeal Cert.KernelIdeal.Gen Idealize.ShloMosaic Idealize.ShloMosaic.TcCoe Idealize.SL.Sem
open Idealize.ShloMosaic.ValueIdx
open Idealize.ShloMosaic.Pipeline (Dat)
open Cert.Propagate (weigh weigh_apply)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's product at entry `(p, q)` of a block: the row entry times the weight of row `p`. -/
theorem product_apply (w : Vec Ideal S10240 .f32) (x : Vec Ideal S10240x64 .f32) (p : Fin 10240) (q : Fin 64) :
    k0_pay1 w x (ix2 p q) = x (ix2 p q) * w (ix1 p) := by
  unfold k0_pay1
  rw [mulf_apply, shapeCast_self, Cert.Column.broadcastTo_a1_ab_apply, Cert.Column.shapeCast_a_a1_apply]

/-- A block entry against an array entry: if the block's row entry is the array's and the block's weight is the
    array row's weight, the body's product is the scaled rows' entry. -/
theorem product_eq_weigh (w : Vec Ideal S10240 .f32) (x : Vec Ideal S10240x64 .f32)
    (g : FVec Ideal Cert.Propagate.EdgeRows .f32) (vals : FVec Ideal Cert.Propagate.Edges .f32)
    (p : Fin 10240) (q : Fin 64) (e : Fin 1280000) (k : Fin 64)
    (hx : x (ix2 p q) = g (ix2 e k)) (hw : w (ix1 p) = vals (ix1 e)) :
    k0_pay1 w x (ix2 p q) = weigh g vals (ix2 e k) := by
  rw [product_apply, weigh_apply, hx, hw]

/-- The three windows move together: at point `t` each is at block `t` along the rows (and the two matrices at
    block 0 along the features). Decided over the 125 points. -/
theorem index_facts : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

/-- What point `t` writes back is block `t` of the scaled rows of the two arrays as the region finds them. -/
theorem flushed_eq (c : Dev nD) (t : Fin cfg0.N) :
    (dat0 V c).flushed 2 t = ((cfg0.win 2).blk t).view.read (Elt Ideal) (weigh (F := Ideal) (V c main_v7) (V c main_arg0)) := by
  show (cfg0.win 2).cut (grid0.coords t) ((dat0 V c).after 2 t) = _
  rw [after0_2]
  unfold out0_2
  rw [View.canon_unit_zero origin2]
  simp only [View.ld_unit_zero (S := S10240x64) origin2, View.ld_unit_zero (S := S10240) origin1]
  obtain ⟨e0, e1, e2, e3, e4⟩ := index_facts t
  funext j
  obtain ⟨p, q, rfl⟩ : ∃ (p : Fin 10240) (q : Fin 64), j = ix2 p q := ⟨j 0, j 1, eq_ix2 j⟩
  have hp : p.val < 10240 := p.isLt
  have hq : q.val < 64 := q.isLt
  have hrow : t.val * 10240 + p.val < 1280000 := by
    have ht : t.val < 125 := t.isLt
    omega
  show k0_pay1 (iblk0 V c 1 t) (iblk0 V c 0 t) (ix2 p q)
    = weigh (F := Ideal) (V c main_v7) (V c main_arg0) (((cfg0.win 2).blk t).view.emb (ix2 p q))
  have hemb : ((cfg0.win 2).blk t).view.emb (ix2 p q)
      = ix2 (⟨t.val * 10240 + p.val, hrow⟩ : Fin 1280000) q := by
    funext a; apply Fin.ext
    match a with
    | ⟨0, _⟩ => show win0_2.index t (0 : Fin 2) * 10240 + 1 * p.val = t.val * 10240 + p.val; omega
    | ⟨1, _⟩ => show win0_2.index t (1 : Fin 2) * 64 + 1 * q.val = q.val; omega
  rw [hemb]
  refine product_eq_weigh (iblk0 V c 1 t) (iblk0 V c 0 t) (V c main_v7) (V c main_arg0) p q _ q ?_ ?_
  · show V c main_v7 (((cfg0.win 0).blk t).view.emb (ix2 p q)) = V c main_v7 (ix2 (⟨t.val * 10240 + p.val, hrow⟩ : Fin 1280000) q)
    refine congrArg _ (funext fun a => Fin.ext ?_)
    match a with
    | ⟨0, _⟩ => show win0_0.index t (0 : Fin 2) * 10240 + 1 * p.val = t.val * 10240 + p.val; omega
    | ⟨1, _⟩ => show win0_0.index t (1 : Fin 2) * 64 + 1 * q.val = q.val; omega
  · show V c main_arg0 (((cfg0.win 1).blk t).view.emb (ix1 p)) = V c main_arg0 (ix1 (⟨t.val * 10240 + p.val, hrow⟩ : Fin 1280000))
    refine congrArg _ (funext fun a => Fin.ext ?_)
    match a with
    | ⟨0, _⟩ => show win0_1.index t (0 : Fin 1) * 10240 + 1 * p.val = t.val * 10240 + p.val; omega

/-- An entry of the output array is in point `t`'s block iff each coordinate is in the block's range. -/
theorem mem_block (t : Fin cfg0.N) (i : S1280000x64.Idx) :
    i ∈ ((cfg0.win 2).blk t).view.set ↔ ∀ a : Fin 2, win0_2.index t a * S10240x64.size a ≤ (i a).val ∧ (i a).val < win0_2.index t a * S10240x64.size a + S10240x64.size a := by
  show i ∈ ((View.whole (Pipeline.arrRef spec0 2)).slice (win0_2.rect t)).set ↔ _
  rw [View.set_slice_whole, Rect.mem_set_unit]
  exact Iff.rfl

/-- Every entry of the output array is in some point's block: row `r` is in block `r / 10240`. -/
theorem covered (i : S1280000x64.Idx) :
    ∃ t : Fin cfg0.N, (cfg0.win 2).flush t = true ∧ i ∈ ((cfg0.win 2).blk t).view.set := by
  have hi0 : (i 0).val < 1280000 := (i 0).isLt
  have hi1 : (i 1).val < 64 := (i 1).isLt
  obtain ⟨t, ht⟩ : ∃ t : Fin cfg0.N, t.val = (i 0).val / 10240 :=
    ⟨⟨(i 0).val / 10240, by show (i 0).val / 10240 < 125; omega⟩, rfl⟩
  obtain ⟨e0, e1, e2, e3, e4⟩ := index_facts t
  refine ⟨t, flush0_2 t, ?_⟩
  rw [mem_block]
  intro a
  match a with
  | ⟨0, _⟩ => show win0_2.index t (0 : Fin 2) * 10240 ≤ (i 0).val ∧ (i 0).val < win0_2.index t (0 : Fin 2) * 10240 + 10240; omega
  | ⟨1, _⟩ => show win0_2.index t (1 : Fin 2) * 64 ≤ (i 1).val ∧ (i 1).val < win0_2.index t (1 : Fin 2) * 64 + 64; omega

/-- After the region its output array holds the scaled rows of the two arrays it read. -/
theorem array_eq (c : Dev nD) :
    (dat0 V c).arrAt 2 cfg0.N = weigh (F := Ideal) (V c main_v7) (V c main_arg0) :=
  (dat0 V c).arrAt_eq_of_cover 2 (weigh (F := Ideal) (V c main_v7) (V c main_arg0)) (fun t _ => flushed_eq V c t) covered

end Cert.KernelIdeal.Scale0

end
-- ==== Proof.Scale2.lean ====
/-
  What kernel region 2 leaves in its output array, as one function of the two arrays it reads.

  The region walks the 1,280,000 edge rows in 125 blocks of 10,240. At block `t` the body loads rows
  `[10240·t, 10240·t + 10240)` of the gathered rows and the same stretch of the weight vector, turns the weights into a
  column, repeats the column across the 64 features and multiplies entrywise; the product is written back to the same
  rows of the output. So entry `(e, k)` of the output is `rows[e, k] · weights[e]` — the scaled rows of the
  specification — and the 125 blocks together cover every row.
-/
import proofs.«136025_j74156905333132_2_alg».proof.Proof.Gen.KernelIdeal.Frame
import Idealize.ShloMosaic.Lib.Pipeline.Value
import Idealize.ShloMosaic.Lib.ValueIdx
import proofs.«136025_j74156905333132_2_alg».proof.Proof.Spec
import proofs.«136025_j74156905333132_2_alg».proof.Proof.LibColumn

set_option maxRecDepth 16384

noncomputable section

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)
open Cert.Propagate (weigh weigh_apply)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's product at entry `(p, q)` of a block: the row entry times the weight of row `p`. -/
theorem product_apply (w : Vec Ideal S10240 .f32) (x : Vec Ideal S10240x64 .f32) (p : Fin 10240) (q : Fin 64) :
    k2_pay1 w x (ix2 p q) = x (ix2 p q) * w (ix1 p) := by
  unfold k2_pay1
  rw [mulf_apply, shapeCast_self, Cert.Column.broadcastTo_a1_ab_apply, Cert.Column.shapeCast_a_a1_apply]

/-- A block entry against an array entry: if the block's row entry is the array's and the block's weight is the
    array row's weight, the body's product is the scaled rows' entry. -/
theorem product_eq_weigh (w : Vec Ideal S10240 .f32) (x : Vec Ideal S10240x64 .f32)
    (g : FVec Ideal Cert.Propagate.EdgeRows .f32) (vals : FVec Ideal Cert.Propagate.Edges .f32)
    (p : Fin 10240) (q : Fin 64) (e : Fin 1280000) (k : Fin 64)
    (hx : x (ix2 p q) = g (ix2 e k)) (hw : w (ix1 p) = vals (ix1 e)) :
    k2_pay1 w x (ix2 p q) = weigh g vals (ix2 e k) := by
  rw [product_apply, weigh_apply, hx, hw]

/-- The three windows move together: at point `t` each is at block `t` along the rows (and the two matrices at
    block 0 along the features). Decided over the 125 points. -/
theorem index_facts : ∀ t : Fin cfg2.N, win2_0.index t (0 : Fin 2) = t.val ∧ win2_0.index t (1 : Fin 2) = 0
    ∧ win2_1.index t (0 : Fin 1) = t.val
    ∧ win2_2.index t (0 : Fin 2) = t.val ∧ win2_2.index t (1 : Fin 2) = 0 :=
  (by decide +kernel : ∀ t : Fin grid2.N, _)

/-- What point `t` writes back is block `t` of the scaled rows of the two arrays as the region finds them. -/
theorem flushed_eq (c : Dev nD) (t : Fin cfg2.N) :
    (dat2 V c).flushed 2 t = ((cfg2.win 2).blk t).view.read (Elt Ideal) (weigh (F := Ideal) (V c main_v19) (V c main_arg0)) := by
  show (cfg2.win 2).cut (grid2.coords t) ((dat2 V c).after 2 t) = _
  rw [after2_2]
  unfold out2_2
  rw [View.canon_unit_zero origin2]
  simp only [View.ld_unit_zero (S := S10240x64) origin2, View.ld_unit_zero (S := S10240) origin1]
  obtain ⟨e0, e1, e2, e3, e4⟩ := index_facts t
  funext j
  obtain ⟨p, q, rfl⟩ : ∃ (p : Fin 10240) (q : Fin 64), j = ix2 p q := ⟨j 0, j 1, eq_ix2 j⟩
  have hp : p.val < 10240 := p.isLt
  have hq : q.val < 64 := q.isLt
  have hrow : t.val * 10240 + p.val < 1280000 := by
    have ht : t.val < 125 := t.isLt
    omega
  show k2_pay1 (iblk2 V c 1 t) (iblk2 V c 0 t) (ix2 p q)
    = weigh (F := Ideal) (V c main_v19) (V c main_arg0) (((cfg2.win 2).blk t).view.emb (ix2 p q))
  have hemb : ((cfg2.win 2).blk t).view.emb (ix2 p q)
      = ix2 (⟨t.val * 10240 + p.val, hrow⟩ : Fin 1280000) q := by
    funext a; apply Fin.ext
    match a with
    | ⟨0, _⟩ => show win2_2.index t (0 : Fin 2) * 10240 + 1 * p.val = t.val * 10240 + p.val; omega
    | ⟨1, _⟩ => show win2_2.index t (1 : Fin 2) * 64 + 1 * q.val = q.val; omega
  rw [hemb]
  refine product_eq_weigh (iblk2 V c 1 t) (iblk2 V c 0 t) (V c main_v19) (V c main_arg0) p q _ q ?_ ?_
  · show V c main_v19 (((cfg2.win 0).blk t).view.emb (ix2 p q)) = V c main_v19 (ix2 (⟨t.val * 10240 + p.val, hrow⟩ : Fin 1280000) q)
    refine congrArg _ (funext fun a => Fin.ext ?_)
    match a with
    | ⟨0, _⟩ => show win2_0.index t (0 : Fin 2) * 10240 + 1 * p.val = t.val * 10240 + p.val; omega
    | ⟨1, _⟩ => show win2_0.index t (1 : Fin 2) * 64 + 1 * q.val = q.val; omega
  · show V c main_arg0 (((cfg2.win 1).blk t).view.emb (ix1 p)) = V c main_arg0 (ix1 (⟨t.val * 10240 + p.val, hrow⟩ : Fin 1280000))
    refine congrArg _ (funext fun a => Fin.ext ?_)
    match a with
    | ⟨0, _⟩ => show win2_1.index t (0 : Fin 1) * 10240 + 1 * p.val = t.val * 10240 + p.val; omega

/-- An entry of the output array is in point `t`'s block iff each coordinate is in the block's range. -/
theorem mem_block (t : Fin cfg2.N) (i : S1280000x64.Idx) :
    i ∈ ((cfg2.win 2).blk t).view.set ↔ ∀ a : Fin 2, win2_2.index t a * S10240x64.size a ≤ (i a).val ∧ (i a).val < win2_2.index t a * S10240x64.size a + S10240x64.size a := by
  show i ∈ ((View.whole (Pipeline.arrRef spec2 2)).slice (win2_2.rect t)).set ↔ _
  rw [View.set_slice_whole, Rect.mem_set_unit]
  exact Iff.rfl

/-- Every entry of the output array is in some point's block: row `r` is in block `r / 10240`. -/
theorem covered (i : S1280000x64.Idx) :
    ∃ t : Fin cfg2.N, (cfg2.win 2).flush t = true ∧ i ∈ ((cfg2.win 2).blk t).view.set := by
  have hi0 : (i 0).val < 1280000 := (i 0).isLt
  have hi1 : (i 1).val < 64 := (i 1).isLt
  obtain ⟨t, ht⟩ : ∃ t : Fin cfg2.N, t.val = (i 0).val / 10240 :=
    ⟨⟨(i 0).val / 10240, by show (i 0).val / 10240 < 125; omega⟩, rfl⟩
  obtain ⟨e0, e1, e2, e3, e4⟩ := index_facts t
  refine ⟨t, flush2_2 t, ?_⟩
  rw [mem_block]
  intro a
  match a with
  | ⟨0, _⟩ => show win2_2.index t (0 : Fin 2) * 10240 ≤ (i 0).val ∧ (i 0).val < win2_2.index t (0 : Fin 2) * 10240 + 10240; omega
  | ⟨1, _⟩ => show win2_2.index t (1 : Fin 2) * 64 ≤ (i 1).val ∧ (i 1).val < win2_2.index t (1 : Fin 2) * 64 + 64; omega

/-- After the region its output array holds the scaled rows of the two arrays it read. -/
theorem array_eq (c : Dev nD) :
    (dat2 V c).arrAt 2 cfg2.N = weigh (F := Ideal) (V c main_v19) (V c main_arg0) :=
  (dat2 V c).arrAt_eq_of_cover 2 (weigh (F := Ideal) (V c main_v19) (V c main_arg0)) (fun t _ => flushed_eq V c t) covered

end Cert.KernelIdeal.Scale2

end
-- ==== Proof.Scale4.lean ====
/-
  What kernel region 4 leaves in its output array, as one function of the two arrays it reads.

  The region walks the 1,280,000 edge rows in 125 blocks of 10,240. At block `t` the body loads rows
  `[10240·t, 10240·t + 10240)` of the gathered rows and the same stretch of the weight vector, turns the weights into a
  column, repeats the column across the 64 features and multiplies entrywise; the product is written back to the same
  rows of the output. So entry `(e, k)` of the output is `rows[e, k] · weights[e]` — the scaled rows of the
  specification — and the 125 blocks together cover every row.
-/
import proofs.«136025_j74156905333132_2_alg».proof.Proof.Gen.KernelIdeal.Frame
import Idealize.ShloMosaic.Lib.Pipeline.Value
import Idealize.ShloMosaic.Lib.ValueIdx
import proofs.«136025_j74156905333132_2_alg».proof.Proof.Spec
import proofs.«136025_j74156905333132_2_alg».proof.Proof.LibColumn

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)
open Cert.Propagate (weigh weigh_apply)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's product at entry `(p, q)` of a block: the row entry times the weight of row `p`. -/
theorem product_apply (w : Vec Ideal S10240 .f32) (x : Vec Ideal S10240x64 .f32) (p : Fin 10240) (q : Fin 64) :
    k4_pay1 w x (ix2 p q) = x (ix2 p q) * w (ix1 p) := by
  unfold k4_pay1
  rw [mulf_apply, shapeCast_self, Cert.Column.broadcastTo_a1_ab_apply, Cert.Column.shapeCast_a_a1_apply]

/-- A block entry against an array entry: if the block's row entry is the array's and the block's weight is the
    array row's weight, the body's product is the scaled rows' entry. -/
theorem product_eq_weigh (w : Vec Ideal S10240 .f32) (x : Vec Ideal S10240x64 .f32)
    (g : FVec Ideal Cert.Propagate.EdgeRows .f32) (vals : FVec Ideal Cert.Propagate.Edges .f32)
    (p : Fin 10240) (q : Fin 64) (e : Fin 1280000) (k : Fin 64)
    (hx : x (ix2 p q) = g (ix2 e k)) (hw : w (ix1 p) = vals (ix1 e)) :
    k4_pay1 w x (ix2 p q) = weigh g vals (ix2 e k) := by
  rw [product_apply, weigh_apply, hx, hw]

/-- The three windows move together: at point `t` each is at block `t` along the rows (and the two matrices at
    block 0 along the features). Decided over the 125 points. -/
theorem index_facts : ∀ t : Fin cfg4.N, win4_0.index t (0 : Fin 2) = t.val ∧ win4_0.index t (1 : Fin 2) = 0
    ∧ win4_1.index t (0 : Fin 1) = t.val
    ∧ win4_2.index t (0 : Fin 2) = t.val ∧ win4_2.index t (1 : Fin 2) = 0 :=
  (by decide +kernel : ∀ t : Fin grid4.N, _)

/-- What point `t` writes back is block `t` of the scaled rows of the two arrays as the region finds them. -/
theorem flushed_eq (c : Dev nD) (t : Fin cfg4.N) :
    (dat4 V c).flushed 2 t = ((cfg4.win 2).blk t).view.read (Elt Ideal) (weigh (F := Ideal) (V c main_v31) (V c main_arg0)) := by
  show (cfg4.win 2).cut (grid4.coords t) ((dat4 V c).after 2 t) = _
  rw [after4_2]
  unfold out4_2
  rw [View.canon_unit_zero origin2]
  simp only [View.ld_unit_zero (S := S10240x64) origin2, View.ld_unit_zero (S := S10240) origin1]
  obtain ⟨e0, e1, e2, e3, e4⟩ := index_facts t
  funext j
  obtain ⟨p, q, rfl⟩ : ∃ (p : Fin 10240) (q : Fin 64), j = ix2 p q := ⟨j 0, j 1, eq_ix2 j⟩
  have hp : p.val < 10240 := p.isLt
  have hq : q.val < 64 := q.isLt
  have hrow : t.val * 10240 + p.val < 1280000 := by
    have ht : t.val < 125 := t.isLt
    omega
  show k4_pay1 (iblk4 V c 1 t) (iblk4 V c 0 t) (ix2 p q)
    = weigh (F := Ideal) (V c main_v31) (V c main_arg0) (((cfg4.win 2).blk t).view.emb (ix2 p q))
  have hemb : ((cfg4.win 2).blk t).view.emb (ix2 p q)
      = ix2 (⟨t.val * 10240 + p.val, hrow⟩ : Fin 1280000) q := by
    funext a; apply Fin.ext
    match a with
    | ⟨0, _⟩ => show win4_2.index t (0 : Fin 2) * 10240 + 1 * p.val = t.val * 10240 + p.val; omega
    | ⟨1, _⟩ => show win4_2.index t (1 : Fin 2) * 64 + 1 * q.val = q.val; omega
  rw [hemb]
  refine product_eq_weigh (iblk4 V c 1 t) (iblk4 V c 0 t) (V c main_v31) (V c main_arg0) p q _ q ?_ ?_
  · show V c main_v31 (((cfg4.win 0).blk t).view.emb (ix2 p q)) = V c main_v31 (ix2 (⟨t.val * 10240 + p.val, hrow⟩ : Fin 1280000) q)
    refine congrArg _ (funext fun a => Fin.ext ?_)
    match a with
    | ⟨0, _⟩ => show win4_0.index t (0 : Fin 2) * 10240 + 1 * p.val = t.val * 10240 + p.val; omega
    | ⟨1, _⟩ => show win4_0.index t (1 : Fin 2) * 64 + 1 * q.val = q.val; omega
  · show V c main_arg0 (((cfg4.win 1).blk t).view.emb (ix1 p)) = V c main_arg0 (ix1 (⟨t.val * 10240 + p.val, hrow⟩ : Fin 1280000))
    refine congrArg _ (funext fun a => Fin.ext ?_)
    match a with
    | ⟨0, _⟩ => show win4_1.index t (0 : Fin 1) * 10240 + 1 * p.val = t.val * 10240 + p.val; omega

/-- An entry of the output array is in point `t`'s block iff each coordinate is in the block's range. -/
theorem mem_block (t : Fin cfg4.N) (i : S1280000x64.Idx) :
    i ∈ ((cfg4.win 2).blk t).view.set ↔ ∀ a : Fin 2, win4_2.index t a * S10240x64.size a ≤ (i a).val ∧ (i a).val < win4_2.index t a * S10240x64.size a + S10240x64.size a := by
  show i ∈ ((View.whole (Pipeline.arrRef spec4 2)).slice (win4_2.rect t)).set ↔ _
  rw [View.set_slice_whole, Rect.mem_set_unit]
  exact Iff.rfl

/-- Every entry of the output array is in some point's block: row `r` is in block `r / 10240`. -/
theorem covered (i : S1280000x64.Idx) :
    ∃ t : Fin cfg4.N, (cfg4.win 2).flush t = true ∧ i ∈ ((cfg4.win 2).blk t).view.set := by
  have hi0 : (i 0).val < 1280000 := (i 0).isLt
  have hi1 : (i 1).val < 64 := (i 1).isLt
  obtain ⟨t, ht⟩ : ∃ t : Fin cfg4.N, t.val = (i 0).val / 10240 :=
    ⟨⟨(i 0).val / 10240, by show (i 0).val / 10240 < 125; omega⟩, rfl⟩
  obtain ⟨e0, e1, e2, e3, e4⟩ := index_facts t
  refine ⟨t, flush4_2 t, ?_⟩
  rw [mem_block]
  intro a
  match a with
  | ⟨0, _⟩ => show win4_2.index t (0 : Fin 2) * 10240 ≤ (i 0).val ∧ (i 0).val < win4_2.index t (0 : Fin 2) * 10240 + 10240; omega
  | ⟨1, _⟩ => show win4_2.index t (1 : Fin 2) * 64 ≤ (i 1).val ∧ (i 1).val < win4_2.index t (1 : Fin 2) * 64 + 64; omega

/-- After the region its output array holds the scaled rows of the two arrays it read. -/
theorem array_eq (c : Dev nD) :
    (dat4 V c).arrAt 2 cfg4.N = weigh (F := Ideal) (V c main_v31) (V c main_arg0) :=
  (dat4 V c).arrAt_eq_of_cover 2 (weigh (F := Ideal) (V c main_v31) (V c main_arg0)) (fun t _ => flushed_eq V c t) covered

end Cert.KernelIdeal.Scale4

end
-- ==== Proof.Sum1.lean ====
/-
  What kernel region 1 leaves in its output array, as one function of the two arrays it reads.

  The region walks the 300,000 node rows in 30 blocks of 10,000. At block `t` the body loads rows
  `[10000·t, 10000·t + 10000)` of the running sum and of the newest round and adds them entrywise; the sum is written
  back to the same rows of the output. So the output is the entrywise sum of the two arrays, and the 30 blocks
  together cover every row.
-/
import proofs.«136025_j74156905333132_2_alg».proof.Proof.Gen.KernelIdeal.Frame
import Idealize.ShloMosaic.Lib.Pipeline.Value
import Idealize.ShloMosaic.Lib.ValueIdx

set_option maxRecDepth 16384

noncomputable section

namespace Cert.KernelIdeal.Sum1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's sum at an entry of a block: the two loaded entries added. -/
theorem sum_apply (x y : Vec Ideal S10000x64 .f32) (j : S10000x64.Idx) : k1_pay1 x y j = x j + y j := by
  unfold k1_pay1
  rw [addf_apply, shapeCast_self, shapeCast_self]

/-- A block entry against an array entry: if the two loaded entries are the two arrays' entries, the body's sum is the
    entry of the arrays' sum. -/
theorem sum_eq_add (x y : Vec Ideal S10000x64 .f32) (a b : FVec Ideal S300000x64 .f32)
    (j : S10000x64.Idx) (i : S300000x64.Idx) (hx : x j = a i) (hy : y j = b i) :
    k1_pay1 x y j = addf a b i := by
  rw [sum_apply, addf_apply, hx, hy]

/-- The three windows move together: at point `t` each is at block `t` along the rows and block 0 along the
    features. Decided over the 30 points. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the entrywise sum of the two arrays as the region finds them. -/
theorem flushed_eq (c : Dev nD) (t : Fin cfg1.N) :
    (dat1 V c).flushed 2 t = ((cfg1.win 2).blk t).view.read (Elt Ideal) (addf (F := Ideal) (s := S300000x64) (φ := .f32) (V c main_v0) (V c main_v11)) := by
  show (cfg1.win 2).cut (grid1.coords t) ((dat1 V c).after 2 t) = _
  rw [after1_2]
  unfold out1_2
  rw [View.canon_unit_zero origin2]
  simp only [View.ld_unit_zero (S := S10000x64) origin2]
  obtain ⟨e0, e1, e2, e3, e4, e5⟩ := index_facts t
  funext j
  show k1_pay1 (iblk1 V c 0 t) (iblk1 V c 1 t) j = addf (F := Ideal) (s := S300000x64) (φ := .f32) (V c main_v0) (V c main_v11) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  refine sum_eq_add (iblk1 V c 0 t) (iblk1 V c 1 t) (V c main_v0) (V c main_v11) j _ ?_ ?_
  · show V c main_v0 (((cfg1.win 0).blk t).view.emb j) = V c main_v0 (((cfg1.win 2).blk t).view.emb j)
    exact congrArg _ h0
  · show V c main_v11 (((cfg1.win 1).blk t).view.emb j) = V c main_v11 (((cfg1.win 2).blk t).view.emb j)
    exact congrArg _ h1

/-- An entry of the output array is in point `t`'s block iff each coordinate is in the block's range. -/
theorem mem_block (t : Fin cfg1.N) (i : S300000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- Every entry of the output array is in some point's block: row `r` is in block `r / 10000`. -/
theorem covered (i : S300000x64.Idx) :
    ∃ t : Fin cfg1.N, (cfg1.win 2).flush t = true ∧ i ∈ ((cfg1.win 2).blk t).view.set := by
  have hi0 : (i 0).val < 300000 := (i 0).isLt
  have hi1 : (i 1).val < 64 := (i 1).isLt
  obtain ⟨t, ht⟩ : ∃ t : Fin cfg1.N, t.val = (i 0).val / 10000 :=
    ⟨⟨(i 0).val / 10000, by show (i 0).val / 10000 < 30; omega⟩, rfl⟩
  obtain ⟨e0, e1, e2, e3, e4, e5⟩ := index_facts t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region its output array holds the entrywise sum of the two arrays it read. -/
theorem array_eq (c : Dev nD) :
    (dat1 V c).arrAt 2 cfg1.N = addf (F := Ideal) (s := S300000x64) (φ := .f32) (V c main_v0) (V c main_v11) :=
  (dat1 V c).arrAt_eq_of_cover 2 (addf (F := Ideal) (s := S300000x64) (φ := .f32) (V c main_v0) (V c main_v11)) (fun t _ => flushed_eq V c t) covered

end Cert.KernelIdeal.Sum1

end
-- ==== Proof.Sum3.lean ====
/-
  What kernel region 3 leaves in its output array, as one function of the two arrays it reads.

  The region walks the 300,000 node rows in 30 blocks of 10,000. At block `t` the body loads rows
  `[10000·t, 10000·t + 10000)` of the running sum and of the newest round and adds them entrywise; the sum is written
  back to the same rows of the output. So the output is the entrywise sum of the two arrays, and the 30 blocks
  together cover every row.
-/
import proofs.«136025_j74156905333132_2_alg».proof.Proof.Gen.KernelIdeal.Frame
import Idealize.ShloMosaic.Lib.Pipeline.Value
import Idealize.ShloMosaic.Lib.ValueIdx

set_option maxRecDepth 16384

noncomputable section

namespace Cert.KernelIdeal.Sum3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's sum at an entry of a block: the two loaded entries added. -/
theorem sum_apply (x y : Vec Ideal S10000x64 .f32) (j : S10000x64.Idx) : k3_pay1 x y j = x j + y j := by
  unfold k3_pay1
  rw [addf_apply, shapeCast_self, shapeCast_self]

/-- A block entry against an array entry: if the two loaded entries are the two arrays' entries, the body's sum is the
    entry of the arrays' sum. -/
theorem sum_eq_add (x y : Vec Ideal S10000x64 .f32) (a b : FVec Ideal S300000x64 .f32)
    (j : S10000x64.Idx) (i : S300000x64.Idx) (hx : x j = a i) (hy : y j = b i) :
    k3_pay1 x y j = addf a b i := by
  rw [sum_apply, addf_apply, hx, hy]

/-- The three windows move together: at point `t` each is at block `t` along the rows and block 0 along the
    features. Decided over the 30 points. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the entrywise sum of the two arrays as the region finds them. -/
theorem flushed_eq (c : Dev nD) (t : Fin cfg3.N) :
    (dat3 V c).flushed 2 t = ((cfg3.win 2).blk t).view.read (Elt Ideal) (addf (F := Ideal) (s := S300000x64) (φ := .f32) (V c main_v12) (V c main_v23)) := by
  show (cfg3.win 2).cut (grid3.coords t) ((dat3 V c).after 2 t) = _
  rw [after3_2]
  unfold out3_2
  rw [View.canon_unit_zero origin2]
  simp only [View.ld_unit_zero (S := S10000x64) origin2]
  obtain ⟨e0, e1, e2, e3, e4, e5⟩ := index_facts t
  funext j
  show k3_pay1 (iblk3 V c 0 t) (iblk3 V c 1 t) j = addf (F := Ideal) (s := S300000x64) (φ := .f32) (V c main_v12) (V c main_v23) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  refine sum_eq_add (iblk3 V c 0 t) (iblk3 V c 1 t) (V c main_v12) (V c main_v23) j _ ?_ ?_
  · show V c main_v12 (((cfg3.win 0).blk t).view.emb j) = V c main_v12 (((cfg3.win 2).blk t).view.emb j)
    exact congrArg _ h0
  · show V c main_v23 (((cfg3.win 1).blk t).view.emb j) = V c main_v23 (((cfg3.win 2).blk t).view.emb j)
    exact congrArg _ h1

/-- An entry of the output array is in point `t`'s block iff each coordinate is in the block's range. -/
theorem mem_block (t : Fin cfg3.N) (i : S300000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole (Pipeline.arrRef spec3 2)).slice (win3_2.rect t)).set ↔ _
  rw [View.set_slice_whole, Rect.mem_set_unit]
  exact Iff.rfl

/-- Every entry of the output array is in some point's block: row `r` is in block `r / 10000`. -/
theorem covered (i : S300000x64.Idx) :
    ∃ t : Fin cfg3.N, (cfg3.win 2).flush t = true ∧ i ∈ ((cfg3.win 2).blk t).view.set := by
  have hi0 : (i 0).val < 300000 := (i 0).isLt
  have hi1 : (i 1).val < 64 := (i 1).isLt
  obtain ⟨t, ht⟩ : ∃ t : Fin cfg3.N, t.val = (i 0).val / 10000 :=
    ⟨⟨(i 0).val / 10000, by show (i 0).val / 10000 < 30; omega⟩, rfl⟩
  obtain ⟨e0, e1, e2, e3, e4, e5⟩ := index_facts t
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region its output array holds the entrywise sum of the two arrays it read. -/
theorem array_eq (c : Dev nD) :
    (dat3 V c).arrAt 2 cfg3.N = addf (F := Ideal) (s := S300000x64) (φ := .f32) (V c main_v12) (V c main_v23) :=
  (dat3 V c).arrAt_eq_of_cover 2 (addf (F := Ideal) (s := S300000x64) (φ := .f32) (V c main_v12) (V c main_v23)) (fun t _ => flushed_eq V c t) covered

end Cert.KernelIdeal.Sum3

end
-- ==== Proof.Sum5.lean ====
/-
  What kernel region 5 leaves in its output array, as one function of the two arrays it reads.

  The region walks the 300,000 node rows in 30 blocks of 10,000. At block `t` the body loads rows
  `[10000·t, 10000·t + 10000)` of the running sum and of the newest round and adds them entrywise; the sum is written
  back to the same rows of the output. So the output is the entrywise sum of the two arrays, and the 30 blocks
  together cover every row.
-/
import proofs.«136025_j74156905333132_2_alg».proof.Proof.Gen.KernelIdeal.Frame
import Idealize.ShloMosaic.Lib.Pipeline.Value
import Idealize.ShloMosaic.Lib.ValueIdx

set_option maxRecDepth 16384

noncomputable section

namespace Cert.KernelIdeal.Sum5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's sum at an entry of a block: the two loaded entries added. -/
theorem sum_apply (x y : Vec Ideal S10000x64 .f32) (j : S10000x64.Idx) : k5_pay1 x y j = x j + y j := by
  unfold k5_pay1
  rw [addf_apply, shapeCast_self, shapeCast_self]

/-- A block entry against an array entry: if the two loaded entries are the two arrays' entries, the body's sum is the
    entry of the arrays' sum. -/
theorem sum_eq_add (x y : Vec Ideal S10000x64 .f32) (a b : FVec Ideal S300000x64 .f32)
    (j : S10000x64.Idx) (i : S300000x64.Idx) (hx : x j = a i) (hy : y j = b i) :
    k5_pay1 x y j = addf a b i := by
  rw [sum_apply, addf_apply, hx, hy]

/-- The three windows move together: at point `t` each is at block `t` along the rows and block 0 along the
    features. Decided over the 30 points. -/
theorem index_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the entrywise sum of the two arrays as the region finds them. -/
theorem flushed_eq (c : Dev nD) (t : Fin cfg5.N) :
    (dat5 V c).flushed 2 t = ((cfg5.win 2).blk t).view.read (Elt Ideal) (addf (F := Ideal) (s := S300000x64) (φ := .f32) (V c main_v24) (V c main_v35)) := by
  show (cfg5.win 2).cut (grid5.coords t) ((dat5 V c).after 2 t) = _
  rw [after5_2]
  unfold out5_2
  rw [View.canon_unit_zero origin2]
  simp only [View.ld_unit_zero (S := S10000x64) origin2]
  obtain ⟨e0, e1, e2, e3, e4, e5⟩ := index_facts t
  funext j
  show k5_pay1 (iblk5 V c 0 t) (iblk5 V c 1 t) j = addf (F := Ideal) (s := S300000x64) (φ := .f32) (V c main_v24) (V c main_v35) (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  refine sum_eq_add (iblk5 V c 0 t) (iblk5 V c 1 t) (V c main_v24) (V c main_v35) j _ ?_ ?_
  · show V c main_v24 (((cfg5.win 0).blk t).view.emb j) = V c main_v24 (((cfg5.win 2).blk t).view.emb j)
    exact congrArg _ h0
  · show V c main_v35 (((cfg5.win 1).blk t).view.emb j) = V c main_v35 (((cfg5.win 2).blk t).view.emb j)
    exact congrArg _ h1

/-- An entry of the output array is in point `t`'s block iff each coordinate is in the block's range. -/
theorem mem_block (t : Fin cfg5.N) (i : S300000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole (Pipeline.arrRef spec5 2)).slice (win5_2.rect t)).set ↔ _
  rw [View.set_slice_whole, Rect.mem_set_unit]
  exact Iff.rfl

/-- Every entry of the output array is in some point's block: row `r` is in block `r / 10000`. -/
theorem covered (i : S300000x64.Idx) :
    ∃ t : Fin cfg5.N, (cfg5.win 2).flush t = true ∧ i ∈ ((cfg5.win 2).blk t).view.set := by
  have hi0 : (i 0).val < 300000 := (i 0).isLt
  have hi1 : (i 1).val < 64 := (i 1).isLt
  obtain ⟨t, ht⟩ : ∃ t : Fin cfg5.N, t.val = (i 0).val / 10000 :=
    ⟨⟨(i 0).val / 10000, by show (i 0).val / 10000 < 30; omega⟩, rfl⟩
  obtain ⟨e0, e1, e2, e3, e4, e5⟩ := index_facts t
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region its output array holds the entrywise sum of the two arrays it read. -/
theorem array_eq (c : Dev nD) :
    (dat5 V c).arrAt 2 cfg5.N = addf (F := Ideal) (s := S300000x64) (φ := .f32) (V c main_v24) (V c main_v35) :=
  (dat5 V c).arrAt_eq_of_cover 2 (addf (F := Ideal) (s := S300000x64) (φ := .f32) (V c main_v24) (V c main_v35)) (fun t _ => flushed_eq V c t) covered

end Cert.KernelIdeal.Sum5

end
-- ==== Proof.Walk.lean ====
/-
  The kernel program's two results as functions of its five arguments.

  The program alternates stretches of array operations with kernel regions, and the contents of its buffers are
  followed from boundary to boundary. Writing `T` for the stacked table and `R x` for one round of propagation from
  `x` (gather the source rows, scale by the edge weights, add into a zero table at the target rows):

    stretch 0 builds `T` and gathers its source rows;      region 0 scales them;
    stretch 1 adds them up: `R T`;                          region 1 forms `T + R T`;
    stretch 2 gathers the source rows of `R T`;             region 2 scales them;
    stretch 3 adds them up: `R (R T)`;                      region 3 forms `(T + R T) + R (R T)`;
    stretch 4 gathers the source rows of `R (R T)`;         region 4 scales them;
    stretch 5 adds them up: `R (R (R T))`;                  region 5 forms the total;
    stretch 6 cuts the total into its user rows and its item rows.

  At every boundary the buffers still to be read are named: the newest round, the running sum, and the arguments —
  a region leaves every buffer other than its output as it found it, and a stretch writes only its own results.
-/
import proofs.«136025_j74156905333132_2_alg».proof.Proof.Gen.KernelIdeal.Frame
import proofs.«136025_j74156905333132_2_alg».proof.Proof.Spec
import proofs.«136025_j74156905333132_2_alg».proof.Proof.Stretches
import proofs.«136025_j74156905333132_2_alg».proof.Proof.Scale0
import proofs.«136025_j74156905333132_2_alg».proof.Proof.Scale2
import proofs.«136025_j74156905333132_2_alg».proof.Proof.Scale4
import proofs.«136025_j74156905333132_2_alg».proof.Proof.Sum1
import proofs.«136025_j74156905333132_2_alg».proof.Proof.Sum3
import proofs.«136025_j74156905333132_2_alg».proof.Proof.Sum5

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.Propagate

variable (m : (ℓ : Loc nD τ sig) → Buf (Elt Ideal) ℓ) (ρ : Dev nD → PrngReg) (c : Dev nD)

/-- The five arguments as launched, as plain arrays. -/
abbrev vals : FVec Ideal Edges .f32 := m ((c.tc : Thread nD τ).loc main_arg0)
abbrev ue : FVec Ideal Users .f32 := m ((c.tc : Thread nD τ).loc main_arg1)
abbrev ie : FVec Ideal Items .f32 := m ((c.tc : Thread nD τ).loc main_arg2)
abbrev rows : IVec Edges 32 := m ((c.tc : Thread nD τ).loc main_arg3)
abbrev cols : IVec Edges 32 := m ((c.tc : Thread nD τ).loc main_arg4)

/-- The stacked table, the source rows of a table, and one round from a table, at the launched arguments. -/
abbrev T : FVec Ideal Nodes .f32 := table (ue m c) (ie m c)
abbrev G (x : FVec Ideal Nodes .f32) : FVec Ideal EdgeRows .f32 := Host.gather takeRows x (sources (cols m c))
abbrev R (x : FVec Ideal Nodes .f32) : FVec Ideal Nodes .f32 := round (vals m c) (rows m c) (cols m c) x

/-- At the last boundary the two result buffers hold the user rows and the item rows of the specification's total. -/
theorem results :
    W13 m ρ c (Proc.devRef .tc main_v37) = userPart (vals m c) (ue m c) (ie m c) (rows m c) (cols m c)
    ∧ W13 m ρ c (Proc.devRef .tc main_v38) = itemPart (vals m c) (ue m c) (ie m c) (rows m c) (cols m c) := by
  -- after stretch 0
  obtain ⟨hT1, hG1, hA1, hR1, hC1⟩ := Stretch.stretch0 (W0 m ρ c) (ue m c) (ie m c) (cols m c) rfl rfl rfl
  have hA1 : W1 m ρ c (Proc.devRef .tc main_arg0) = vals m c := hA1
  have hR1 : W1 m ρ c (Proc.devRef .tc main_arg3) = rows m c := hR1
  have hC1 : W1 m ρ c (Proc.devRef .tc main_arg4) = cols m c := hC1
  -- after region 0
  have hS2 : W2 m ρ c (Proc.devRef .tc main_v8) = weigh (F := Ideal) (G m c (T m c)) (vals m c) :=
    (W2_arr m ρ c 2).trans ((Scale0.array_eq (V1 m ρ) c).trans (congrArg₂ (weigh (F := Ideal)) hG1 hA1))
  have hT2 : W2 m ρ c (Proc.devRef .tc main_v0) = T m c := (W2_of_ne m ρ c main_v0 (by decide)).trans hT1
  have hA2 : W2 m ρ c (Proc.devRef .tc main_arg0) = vals m c :=
    ((W2_arr m ρ c 1).trans (((dat0 (V1 m ρ) c).arrAt_in 1 rfl _).trans (A_eq0 (V1 m ρ) c 1))).trans hA1
  have hR2 : W2 m ρ c (Proc.devRef .tc main_arg3) = rows m c := (W2_of_ne m ρ c main_arg3 (by decide)).trans hR1
  have hC2 : W2 m ρ c (Proc.devRef .tc main_arg4) = cols m c := (W2_of_ne m ρ c main_arg4 (by decide)).trans hC1
  -- after stretch 1
  obtain ⟨hS3, hT3, hA3, hR3, hC3⟩ := Stretch.stretch1 (W2 m ρ c) _ (rows m c) hS2 hR2
  have hS3 : W3 m ρ c (Proc.devRef .tc main_v11) = R m c (T m c) := hS3
  have hT3 : W3 m ρ c (Proc.devRef .tc main_v0) = T m c := hT3.trans hT2
  have hA3 : W3 m ρ c (Proc.devRef .tc main_arg0) = vals m c := hA3.trans hA2
  have hR3 : W3 m ρ c (Proc.devRef .tc main_arg3) = rows m c := hR3.trans hR2
  have hC3 : W3 m ρ c (Proc.devRef .tc main_arg4) = cols m c := hC3.trans hC2
  -- after region 1
  have hQ4 : W4 m ρ c (Proc.devRef .tc main_v12) = addf (F := Ideal) (s := Nodes) (φ := .f32) (T m c) (R m c (T m c)) :=
    (W4_arr m ρ c 2).trans ((Sum1.array_eq (V3 m ρ) c).trans (congrArg₂ (addf (F := Ideal) (s := Nodes) (φ := .f32)) hT3 hS3))
  have hS4 : W4 m ρ c (Proc.devRef .tc main_v11) = R m c (T m c) :=
    ((W4_arr m ρ c 1).trans (((dat1 (V3 m ρ) c).arrAt_in 1 rfl _).trans (A_eq1 (V3 m ρ) c 1))).trans hS3
  have hA4 : W4 m ρ c (Proc.devRef .tc main_arg0) = vals m c := (W4_of_ne m ρ c main_arg0 (by decide)).trans hA3
  have hR4 : W4 m ρ c (Proc.devRef .tc main_arg3) = rows m c := (W4_of_ne m ρ c main_arg3 (by decide)).trans hR3
  have hC4 : W4 m ρ c (Proc.devRef .tc main_arg4) = cols m c := (W4_of_ne m ρ c main_arg4 (by decide)).trans hC3
  -- after stretch 2
  obtain ⟨hG5, hQ5, hA5, hR5, hC5⟩ := Stretch.stretch2 (W4 m ρ c) _ (cols m c) hS4 hC4
  have hG5 : W5 m ρ c (Proc.devRef .tc main_v19) = G m c (R m c (T m c)) := hG5
  have hQ5 : W5 m ρ c (Proc.devRef .tc main_v12) = addf (F := Ideal) (s := Nodes) (φ := .f32) (T m c) (R m c (T m c)) := hQ5.trans hQ4
  have hA5 : W5 m ρ c (Proc.devRef .tc main_arg0) = vals m c := hA5.trans hA4
  have hR5 : W5 m ρ c (Proc.devRef .tc main_arg3) = rows m c := hR5.trans hR4
  have hC5 : W5 m ρ c (Proc.devRef .tc main_arg4) = cols m c := hC5.trans hC4
  -- after region 2
  have hS6 : W6 m ρ c (Proc.devRef .tc main_v20) = weigh (F := Ideal) (G m c (R m c (T m c))) (vals m c) :=
    (W6_arr m ρ c 2).trans ((Scale2.array_eq (V5 m ρ) c).trans (congrArg₂ (weigh (F := Ideal)) hG5 hA5))
  have hQ6 : W6 m ρ c (Proc.devRef .tc main_v12) = addf (F := Ideal) (s := Nodes) (φ := .f32) (T m c) (R m c (T m c)) := (W6_of_ne m ρ c main_v12 (by decide)).trans hQ5
  have hA6 : W6 m ρ c (Proc.devRef .tc main_arg0) = vals m c :=
    ((W6_arr m ρ c 1).trans (((dat2 (V5 m ρ) c).arrAt_in 1 rfl _).trans (A_eq2 (V5 m ρ) c 1))).trans hA5
  have hR6 : W6 m ρ c (Proc.devRef .tc main_arg3) = rows m c := (W6_of_ne m ρ c main_arg3 (by decide)).trans hR5
  have hC6 : W6 m ρ c (Proc.devRef .tc main_arg4) = cols m c := (W6_of_ne m ρ c main_arg4 (by decide)).trans hC5
  -- after stretch 3
  obtain ⟨hS7, hQ7, hA7, hR7, hC7⟩ := Stretch.stretch3 (W6 m ρ c) _ (rows m c) hS6 hR6
  have hS7 : W7 m ρ c (Proc.devRef .tc main_v23) = R m c (R m c (T m c)) := hS7
  have hQ7 : W7 m ρ c (Proc.devRef .tc main_v12) = addf (F := Ideal) (s := Nodes) (φ := .f32) (T m c) (R m c (T m c)) := hQ7.trans hQ6
  have hA7 : W7 m ρ c (Proc.devRef .tc main_arg0) = vals m c := hA7.trans hA6
  have hR7 : W7 m ρ c (Proc.devRef .tc main_arg3) = rows m c := hR7.trans hR6
  have hC7 : W7 m ρ c (Proc.devRef .tc main_arg4) = cols m c := hC7.trans hC6
  -- after region 3
  have hQ8 : W8 m ρ c (Proc.devRef .tc main_v24) = addf (F := Ideal) (s := Nodes) (φ := .f32) (addf (F := Ideal) (s := Nodes) (φ := .f32) (T m c) (R m c (T m c))) (R m c (R m c (T m c))) :=
    (W8_arr m ρ c 2).trans ((Sum3.array_eq (V7 m ρ) c).trans (congrArg₂ (addf (F := Ideal) (s := Nodes) (φ := .f32)) hQ7 hS7))
  have hS8 : W8 m ρ c (Proc.devRef .tc main_v23) = R m c (R m c (T m c)) :=
    ((W8_arr m ρ c 1).trans (((dat3 (V7 m ρ) c).arrAt_in 1 rfl _).trans (A_eq3 (V7 m ρ) c 1))).trans hS7
  have hA8 : W8 m ρ c (Proc.devRef .tc main_arg0) = vals m c := (W8_of_ne m ρ c main_arg0 (by decide)).trans hA7
  have hR8 : W8 m ρ c (Proc.devRef .tc main_arg3) = rows m c := (W8_of_ne m ρ c main_arg3 (by decide)).trans hR7
  have hC8 : W8 m ρ c (Proc.devRef .tc main_arg4) = cols m c := (W8_of_ne m ρ c main_arg4 (by decide)).trans hC7
  -- after stretch 4
  obtain ⟨hG9, hQ9, hA9, hR9⟩ := Stretch.stretch4 (W8 m ρ c) _ (cols m c) hS8 hC8
  have hG9 : W9 m ρ c (Proc.devRef .tc main_v31) = G m c (R m c (R m c (T m c))) := hG9
  have hQ9 : W9 m ρ c (Proc.devRef .tc main_v24) = addf (F := Ideal) (s := Nodes) (φ := .f32) (addf (F := Ideal) (s := Nodes) (φ := .f32) (T m c) (R m c (T m c))) (R m c (R m c (T m c))) := hQ9.trans hQ8
  have hA9 : W9 m ρ c (Proc.devRef .tc main_arg0) = vals m c := hA9.trans hA8
  have hR9 : W9 m ρ c (Proc.devRef .tc main_arg3) = rows m c := hR9.trans hR8
  -- after region 4
  have hS10 : W10 m ρ c (Proc.devRef .tc main_v32) = weigh (F := Ideal) (G m c (R m c (R m c (T m c)))) (vals m c) :=
    (W10_arr m ρ c 2).trans ((Scale4.array_eq (V9 m ρ) c).trans (congrArg₂ (weigh (F := Ideal)) hG9 hA9))
  have hQ10 : W10 m ρ c (Proc.devRef .tc main_v24) = addf (F := Ideal) (s := Nodes) (φ := .f32) (addf (F := Ideal) (s := Nodes) (φ := .f32) (T m c) (R m c (T m c))) (R m c (R m c (T m c))) :=
    (W10_of_ne m ρ c main_v24 (by decide)).trans hQ9
  have hR10 : W10 m ρ c (Proc.devRef .tc main_arg3) = rows m c := (W10_of_ne m ρ c main_arg3 (by decide)).trans hR9
  -- after stretch 5
  obtain ⟨hS11, hQ11⟩ := Stretch.stretch5 (W10 m ρ c) _ (rows m c) hS10 hR10
  have hS11 : W11 m ρ c (Proc.devRef .tc main_v35) = R m c (R m c (R m c (T m c))) := hS11
  have hQ11 : W11 m ρ c (Proc.devRef .tc main_v24) = addf (F := Ideal) (s := Nodes) (φ := .f32) (addf (F := Ideal) (s := Nodes) (φ := .f32) (T m c) (R m c (T m c))) (R m c (R m c (T m c))) := hQ11.trans hQ10
  -- after region 5
  have hQ12 : W12 m ρ c (Proc.devRef .tc main_v36) = total (vals m c) (ue m c) (ie m c) (rows m c) (cols m c) :=
    (W12_arr m ρ c 2).trans ((Sum5.array_eq (V11 m ρ) c).trans (congrArg₂ (addf (F := Ideal) (s := Nodes) (φ := .f32)) hQ11 hS11))
  -- after stretch 6
  obtain ⟨hU, hI⟩ := Stretch.stretch6 (W12 m ρ c) _ hQ12
  exact ⟨hU, hI⟩

end Cert.KernelIdeal.Walk

end
-- ==== Proof.RefSpec.lean ====
/-
  The reference program computes the specification.

  Its run ends with each result at the composition of its array operations applied to the launched arguments: the two
  tables stacked; three times over, the source rows gathered, multiplied entrywise by the weights placed as a column
  and repeated across the features, and added into a zero table at the target rows, each round added to the running
  sum; and the sum cut into user rows and item rows. That composition is, operation for operation, the
  specification's `userPart` and `itemPart`, so the two agree by unfolding the names.
-/
import proofs.«136025_j74156905333132_2_alg».proof.Proof.Gen.ReferenceIdeal.Run
import proofs.«136025_j74156905333132_2_alg».proof.Proof.Spec

set_option maxRecDepth 16384

noncomputable section

namespace Cert.ReferenceIdeal.Against

open Cert.ReferenceIdeal Cert.ReferenceIdeal.Gen Cert.ReferenceIdeal.Value
open Idealize.ShloMosaic Idealize.ShloMosaic.TcCoe Idealize.SL.Sem
open Cert.Propagate

variable (m : (ℓ : Loc nD τ sig) → Buf (Elt Ideal) ℓ) (c : Dev nD)

/-- The reference's first result is the user rows of the total of its launched arguments. -/
theorem users_eq :
    res_out0 (F := Ideal) m c = userPart (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  show res_main_v43 m c = _
  unfold res_main_v43 userPart total
  rfl

/-- The reference's second result is the item rows of the total of its launched arguments. -/
theorem items_eq :
    res_out1 (F := Ideal) m c = itemPart (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  show res_main_v44 m c = _
  unfold res_main_v44 itemPart total
  rfl

end Cert.ReferenceIdeal.Against

end
-- ==== Proof.lean ====
/-
  Three rounds of sparse propagation with a running sum: the kernel program against its array-program reference.

  Both programs stack the user table on the item table and then, three times, gather the rows at the edges' sources,
  scale each gathered row by its edge's weight, add the scaled rows into a zero table at the edges' targets, and add
  that round to a running sum; the sum is returned as its user rows and its item rows. The reference does the scaling
  and the adding with whole-array operations. The kernel program does them in tiled kernels: the scaling over 125
  blocks of 10,240 edges — `rows[e, k] · weights[e]`, the weights turned into a column and repeated across the 64
  features inside each block — and the adding over 30 blocks of 10,000 nodes. Entry by entry each kernel writes
  exactly what the whole-array operation computes, in the same operand order, and its blocks tile the output; the
  gathers, the additions into the zero table, the stacking and the final cuts are the same operations in both
  programs. So both results are the same function of the arguments (`Cert.Propagate.userPart`, `itemPart`) on all
  extended reals; no finiteness of the inputs is used.

  The kernel program terminates without a fault and leaves its arguments alone (its frame), at the word level and at
  the extended reals alike; the reference's frame is its run with the results dropped; the idealization rewrote
  nothing, so there is nothing to preserve.
-/
import proofs.«136025_j74156905333132_2_alg».proof.Defs
import proofs.«136025_j74156905333132_2_alg».proof.Proof.Gen.Kernel
import proofs.«136025_j74156905333132_2_alg».proof.Proof.Gen.Kernel.Frame
import proofs.«136025_j74156905333132_2_alg».proof.Proof.Gen.KernelIdeal
import proofs.«136025_j74156905333132_2_alg».proof.Proof.Gen.KernelIdeal.Frame
import proofs.«136025_j74156905333132_2_alg».proof.Proof.Gen.ReferenceIdeal
import proofs.«136025_j74156905333132_2_alg».proof.Proof.Gen.ReferenceIdeal.Run
import proofs.«136025_j74156905333132_2_alg».proof.Proof.Gen.Pre_finite_inputs
import proofs.«136025_j74156905333132_2_alg».proof.Proof.NamedRun
import proofs.«136025_j74156905333132_2_alg».proof.Proof.Walk
import proofs.«136025_j74156905333132_2_alg».proof.Proof.RefSpec
import Idealize.ShloMosaic.Adequacy
import Idealize.ShloMosaic.Init

noncomputable section

namespace Cert.Proof

open Idealize.ShloMosaic Idealize.SL.Sem
open Cert.Propagate

/-- Equal arguments give equal user rows. -/
theorem userPart_congr {a0 b0 : FVec Ideal Edges .f32} {a1 b1 : FVec Ideal Users .f32} {a2 b2 : FVec Ideal Items .f32}
    {a3 b3 a4 b4 : IVec Edges 32} (h0 : a0 = b0) (h1 : a1 = b1) (h2 : a2 = b2) (h3 : a3 = b3) (h4 : a4 = b4) :
    userPart a0 a1 a2 a3 a4 = userPart b0 b1 b2 b3 b4 := by
  subst h0 h1 h2 h3 h4; rfl

/-- Equal arguments give equal item rows. -/
theorem itemPart_congr {a0 b0 : FVec Ideal Edges .f32} {a1 b1 : FVec Ideal Users .f32} {a2 b2 : FVec Ideal Items .f32}
    {a3 b3 a4 b4 : IVec Edges 32} (h0 : a0 = b0) (h1 : a1 = b1) (h2 : a2 = b2) (h3 : a3 = b3) (h4 : a4 = b4) :
    itemPart a0 a1 a2 a3 a4 = itemPart b0 b1 b2 b3 b4 := by
  subst h0 h1 h2 h3 h4; rfl

/-- The reference terminates without a fault and leaves its arguments alone: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments both programs run to the end, each leaving the user rows and the
    item rows of the same total in its two results, and neither touches its arguments. -/
theorem algebraic : Cert.algebraic_KernelIdeal_ReferenceIdeal :=
  fun m ρ m' ρ' _ hagree =>
    ⟨fun c => userPart (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
     fun c => itemPart (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
     (θ_run Cert.KernelIdeal.defs _ _).mono
       (fun _ h c => ⟨(h c).1.trans (Cert.KernelIdeal.Walk.results m ρ c).1,
                      (h c).2.1.trans (Cert.KernelIdeal.Walk.results m ρ c).2, (h c).2.2⟩)
       (Cert.KernelIdeal.Named.run (F := Ideal) m ρ),
     (θ_run Cert.ReferenceIdeal.defs _ _).mono
       (fun _ h c => ⟨(h c).1.trans ((Cert.ReferenceIdeal.Against.users_eq m' c).trans
                        (userPart_congr (hagree c).1 (hagree c).2.1 (hagree c).2.2.1 (hagree c).2.2.2.1 (hagree c).2.2.2.2)),
                      (h c).2.1.trans ((Cert.ReferenceIdeal.Against.items_eq m' c).trans
                        (itemPart_congr (hagree c).1 (hagree c).2.1 (hagree c).2.2.1 (hagree c).2.2.2.1 (hagree c).2.2.2.2)),
                      (h c).2.2⟩)
       (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
